-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x1x2048x2048 : S_.BroadcastsInDim S2x1x2048x2048 (![] : Fin 0 → Fin S2x1x2048x2048.rank)
  reducesTo_S2x1x2048x2048_S_d0_1_2_3 : S2x1x2048x2048.ReducesTo [0, 1, 2, 3] S_

variable [Facts]

def fn_part1 {F : FTy → Type} [FloatOps F] (main_v13 : IVec S_ 1) (main_v16 : IVec S2x1x2048x2048 1) : IVec S_ 1 :=
  let main_c_5 : IVec S_ 1 := constantI S_ 1 1#1
  let main_v17 : IVec S_ 1 := (fun x v => Host.reduce IntOp.andi x v reducesTo_S2x1x2048x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x1x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x1x2048x2048 .f32 := Host.absf main_arg3
  let main_cst_4 : FVec F S_ .f32 := constant S_ .f32 0x7F800000#32
  let main_v15 : FVec F S2x1x2048x2048 .f32 := broadcastInDim S2x1x2048x2048 ![] bcast_S_S2x1x2048x2048 main_cst_4
  let main_v16 : IVec S2x1x2048x2048 1 := cmpf .olt main_v14 main_v15
  fn_part1 (F := F) main_v13 main_v16
-- ==== Kernel.lean ====
abbrev S2x16x2048x64 : Shape := ⟨4, ![2, 16, 2048, 64]⟩
abbrev S2x1x2048x2048 : Shape := ⟨4, ![2, 1, 2048, 2048]⟩
abbrev S1x16x256x64 : Shape := ⟨4, ![1, 16, 256, 64]⟩
abbrev S1x16x2048x64 : Shape := ⟨4, ![1, 16, 2048, 64]⟩
abbrev S1x1x256x2048 : Shape := ⟨4, ![1, 1, 256, 2048]⟩
abbrev S256x2048 : Shape := ⟨2, ![256, 2048]⟩
abbrev S1x1x256x64 : Shape := ⟨4, ![1, 1, 256, 64]⟩
abbrev S256x64 : Shape := ⟨2, ![256, 64]⟩
abbrev S1x1x2048x64 : Shape := ⟨4, ![1, 1, 2048, 64]⟩
abbrev S2048x64 : Shape := ⟨2, ![2048, 64]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .f32⟩
  | .hbm, ⟨4, _⟩ => ⟨S2x16x2048x64, .f32⟩
  | .local _ .vmem, ⟨0, _⟩ => ⟨S1x16x256x64, .f32⟩
  | .local _ .vmem, ⟨1, _⟩ => ⟨S1x16x256x64, .f32⟩
  | .local _ .vmem, ⟨2, _⟩ => ⟨S1x16x2048x64, .f32⟩
  | .local _ .vmem, ⟨3, _⟩ => ⟨S1x16x2048x64, .f32⟩
  | .local _ .vmem, ⟨4, _⟩ => ⟨S1x16x2048x64, .f32⟩
  | .local _ .vmem, ⟨5, _⟩ => ⟨S1x16x2048x64, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x16x256x64, .f32⟩
  | .local _ .vmem, ⟨9, _⟩ => ⟨S1x16x256x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  inb_S1x16x256x64_S1x1x256x64_0_0_0_0 : ∀ a, (![0, 0, 0, 0] : Fin 4 → Nat) a + S1x1x256x64.size a ≤ S1x16x256x64.size a
  h_S1x1x256x64 : 0 < S1x1x256x64.numel
  shapeCasts_S1x1x256x64_S256x64 : S1x1x256x64.ShapeCasts S256x64
  bitsLt_bf16_f32 : FTy.bits .bf16 < FTy.bits .f32
  inb_S1x16x2048x64_S1x1x2048x64_0_0_0_0 : ∀ a, (![0, 0, 0, 0] : Fin 4 → Nat) a + S1x1x2048x64.size a ≤ S1x16x2048x64.size a
  h_S1x1x2048x64 : 0 < S1x1x2048x64.numel
  shapeCasts_S1x1x2048x64_S2048x64 : S1x1x2048x64.ShapeCasts S2048x64
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  inb_S1x16x256x64_S1x1x256x64_0_1_0_0 : ∀ a, (![0, 1, 0, 0] : Fin 4 → Nat) a + S1x1x256x64.size a ≤ S1x16x256x64.size a
  inb_S1x16x2048x64_S1x1x2048x64_0_1_0_0 : ∀ a, (![0, 1, 0, 0] : Fin 4 → Nat) a + S1x1x2048x64.size a ≤ S1x16x2048x64.size a
  inb_S1x16x256x64_S1x1x256x64_0_2_0_0 : ∀ a, (![0, 2, 0, 0] : Fin 4 → Nat) a + S1x1x256x64.size a ≤ S1x16x256x64.size a
  inb_S1x16x2048x64_S1x1x2048x64_0_2_0_0 : ∀ a, (![0, 2, 0, 0] : Fin 4 → Nat) a + S1x1x2048x64.size a ≤ S1x16x2048x64.size a
  inb_S1x16x256x64_S1x1x256x64_0_3_0_0 : ∀ a, (![0, 3, 0, 0] : Fin 4 → Nat) a + S1x1x256x64.size a ≤ S1x16x256x64.size a
  inb_S1x16x2048x64_S1x1x2048x64_0_3_0_0 : ∀ a, (![0, 3, 0, 0] : Fin 4 → Nat) a + S1x1x2048x64.size a ≤ S1x16x2048x64.size a
  inb_S1x16x256x64_S1x1x256x64_0_4_0_0 : ∀ a, (![0, 4, 0, 0] : Fin 4 → Nat) a + S1x1x256x64.size a ≤ S1x16x256x64.size a
  inb_S1x16x2048x64_S1x1x2048x64_0_4_0_0 : ∀ a, (![0, 4, 0, 0] : Fin 4 → Nat) a + S1x1x2048x64.size a ≤ S1x16x2048x64.size a
  inb_S1x16x256x64_S1x1x256x64_0_5_0_0 : ∀ a, (![0, 5, 0, 0] : Fin 4 → Nat) a + S1x1x256x64.size a ≤ S1x16x256x64.size a
  inb_S1x16x2048x64_S1x1x2048x64_0_5_0_0 : ∀ a, (![0, 5, 0, 0] : Fin 4 → Nat) a + S1x1x2048x64.size a ≤ S1x16x2048x64.size a
  inb_S1x16x256x64_S1x1x256x64_0_6_0_0 : ∀ a, (![0, 6, 0, 0] : Fin 4 → Nat) a + S1x1x256x64.size a ≤ S1x16x256x64.size a
  inb_S1x16x2048x64_S1x1x2048x64_0_6_0_0 : ∀ a, (![0, 6, 0, 0] : Fin 4 → Nat) a + S1x1x2048x64.size a ≤ S1x16x2048x64.size a
  inb_S1x16x256x64_S1x1x256x64_0_7_0_0 : ∀ a, (![0, 7, 0, 0] : Fin 4 → Nat) a + S1x1x256x64.size a ≤ S1x16x256x64.size a
  inb_S1x16x2048x64_S1x1x2048x64_0_7_0_0 : ∀ a, (![0, 7, 0, 0] : Fin 4 → Nat) a + S1x1x2048x64.size a ≤ S1x16x2048x64.size a
  inb_S1x16x256x64_S1x1x256x64_0_8_0_0 : ∀ a, (![0, 8, 0, 0] : Fin 4 → Nat) a + S1x1x256x64.size a ≤ S1x16x256x64.size a
  inb_S1x16x2048x64_S1x1x2048x64_0_8_0_0 : ∀ a, (![0, 8, 0, 0] : Fin 4 → Nat) a + S1x1x2048x64.size a ≤ S1x16x2048x64.size a
  inb_S1x16x256x64_S1x1x256x64_0_9_0_0 : ∀ a, (![0, 9, 0, 0] : Fin 4 → Nat) a + S1x1x256x64.size a ≤ S1x16x256x64.size a
  inb_S1x16x2048x64_S1x1x2048x64_0_9_0_0 : ∀ a, (![0, 9, 0, 0] : Fin 4 → Nat) a + S1x1x2048x64.size a ≤ S1x16x2048x64.size a
  inb_S1x16x256x64_S1x1x256x64_0_10_0_0 : ∀ a, (![0, 10, 0, 0] : Fin 4 → Nat) a + S1x1x256x64.size a ≤ S1x16x256x64.size a
  inb_S1x16x2048x64_S1x1x2048x64_0_10_0_0 : ∀ a, (![0, 10, 0, 0] : Fin 4 → Nat) a + S1x1x2048x64.size a ≤ S1x16x2048x64.size a
  inb_S1x16x256x64_S1x1x256x64_0_11_0_0 : ∀ a, (![0, 11, 0, 0] : Fin 4 → Nat) a + S1x1x256x64.size a ≤ S1x16x256x64.size a
  inb_S1x16x2048x64_S1x1x2048x64_0_11_0_0 : ∀ a, (![0, 11, 0, 0] : Fin 4 → Nat) a + S1x1x2048x64.size a ≤ S1x16x2048x64.size a
  inb_S1x16x256x64_S1x1x256x64_0_12_0_0 : ∀ a, (![0, 12, 0, 0] : Fin 4 → Nat) a + S1x1x256x64.size a ≤ S1x16x256x64.size a
  inb_S1x16x2048x64_S1x1x2048x64_0_12_0_0 : ∀ a, (![0, 12, 0, 0] : Fin 4 → Nat) a + S1x1x2048x64.size a ≤ S1x16x2048x64.size a
  inb_S1x16x256x64_S1x1x256x64_0_13_0_0 : ∀ a, (![0, 13, 0, 0] : Fin 4 → Nat) a + S1x1x256x64.size a ≤ S1x16x256x64.size a
  inb_S1x16x2048x64_S1x1x2048x64_0_13_0_0 : ∀ a, (![0, 13, 0, 0] : Fin 4 → Nat) a + S1x1x2048x64.size a ≤ S1x16x2048x64.size a
  inb_S1x16x256x64_S1x1x256x64_0_14_0_0 : ∀ a, (![0, 14, 0, 0] : Fin 4 → Nat) a + S1x1x256x64.size a ≤ S1x16x256x64.size a
  inb_S1x16x2048x64_S1x1x2048x64_0_14_0_0 : ∀ a, (![0, 14, 0, 0] : Fin 4 → Nat) a + S1x1x2048x64.size a ≤ S1x16x2048x64.size a
  inb_S1x16x256x64_S1x1x256x64_0_15_0_0 : ∀ a, (![0, 15, 0, 0] : Fin 4 → Nat) a + S1x1x256x64.size a ≤ S1x16x256x64.size a
  inb_S1x16x2048x64_S1x1x2048x64_0_15_0_0 : ∀ a, (![0, 15, 0, 0] : Fin 4 → Nat) a + S1x1x2048x64.size a ≤ S1x16x2048x64.size a
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x64.size a ≤ S2x16x2048x64.size a
  hwx0_0 : ∀ i : grid0.Coords, EltTy.bits .f32 = 32 ∨ (Rect.block (s := S2x16x2048x64) S1x16x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x2048x64.size a ≤ S2x16x2048x64.size a
  hwx0_1 : ∀ i : grid0.Coords, EltTy.bits .f32 = 32 ∨ (Rect.block (s := S2x16x2048x64) S1x16x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x2048x64.size a ≤ S2x16x2048x64.size a
  hwx0_2 : ∀ i : grid0.Coords, EltTy.bits .f32 = 32 ∨ (Rect.block (s := S2x16x2048x64) S1x16x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S2x1x2048x2048.size a
  hwx0_3 : ∀ i : grid0.Coords, EltTy.bits .f32 = 32 ∨ (Rect.block (s := S2x1x2048x2048) S1x1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S2x16x2048x64.size a
  hwx0_4 : ∀ i : grid0.Coords, EltTy.bits .f32 = 32 ∨ (Rect.block (s := S2x16x2048x64) S1x16x256x64.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .f32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Head.lean ====
/-
  One head of the kernel body, as one function.

  The body is the same twenty operations for each of the sixteen heads: the head's query block [256, 64] against its
  key block [2048, 64] by a matrix product contracting the feature axis, scaled, the mask block [256, 2048] added;
  each row's maximum subtracted and the exponential taken; each row divided by its sum; the result against the head's
  value block [2048, 64] by a matrix product contracting the key axis. The printed body is cut into windows by
  statement count, so the sixteen stored values are sixteen different compositions of named pieces of that chain;
  each is the one function `head` of the mask block and the head's three loaded blocks, by unfolding.
-/
import proofs.«147944_j39676907886819_2_alg».proof.Proof.Gen.KernelIdeal.Frame

noncomputable section

namespace Cert.KernelIdeal.Attn

open Cert.KernelIdeal Cert.KernelIdeal.Gen Idealize.ShloMosaic Idealize.SL.Sem

variable {F : FTy → Type} [FloatOps F]

/-- The scores of one head: query times key transposed, scaled by the literal 1/8, plus the mask. -/
def scores (mk : FVec F S256x2048 .f32) (q : Vec F S1x1x256x64 .f32) (k : Vec F S1x1x2048x64 .f32) : FVec F S256x2048 .f32 :=
  addf (mulf (matmul dot_S256x64_S2048x64_S256x2048_1_1_0_0_n_n none
      (truncf .bf16 (shapeCast S256x64 q shapeCasts_S1x1x256x64_S256x64) bitsLt_bf16_f32)
      (truncf .bf16 (shapeCast S2048x64 k shapeCasts_S1x1x2048x64_S2048x64) bitsLt_bf16_f32)
      (constant S256x2048 .f32 0x00000000#32))
    (broadcast S256x2048 (Scalar.ofBits .f32 0x3E000000#32))) mk

/-- Each row's maximum subtracted, then the exponential. -/
def expd (s : FVec F S256x2048 .f32) : FVec F S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- Each row's sum, as a column. -/
def rowSums (e : FVec F S256x2048 .f32) : FVec F S256x1 .f32 :=
  shapeCast S256x1 (multiReduction .add [1] S256 e 0x00000000#32 reduces_S256x2048_S256 (.inl rfl) rfl) shapeCasts_S256_S256x1

/-- Each row divided by its sum. -/
def probs (e : FVec F S256x2048 .f32) : FVec F S256x2048 .f32 :=
  divf e (broadcastTo S256x2048 (rowSums e) broadcasts_S256x1_S256x2048)

/-- The weights against the value block, as the stored block. -/
def pv (p : FVec F S256x2048 .f32) (v : Vec F S1x1x2048x64 .f32) : FVec F S1x1x256x64 .f32 :=
  shapeCast S1x1x256x64 (matmul dot_S256x2048_S2048x64_S256x64_1_0_0_1_n_n none
      (truncf .bf16 p bitsLt_bf16_f32)
      (truncf .bf16 (shapeCast S2048x64 v shapeCasts_S1x1x2048x64_S2048x64) bitsLt_bf16_f32)
      (constant S256x64 .f32 0x00000000#32))
    shapeCasts_S256x64_S1x1x256x64

/-- One head: what is stored for it, from the mask block and the head's query, key and value blocks. -/
def head (mk : FVec F S256x2048 .f32) (q : Vec F S1x1x256x64 .f32) (k v : Vec F S1x1x2048x64 .f32) : FVec F S1x1x256x64 .f32 :=
  pv (probs (expd (scores mk q k))) v

variable (mk : FVec F S256x2048 .f32) (x3 : Vec F S1x1x256x2048 .f32) (q : Vec F S1x1x256x64 .f32) (k v : Vec F S1x1x2048x64 .f32)

theorem pay_h0 : k0_pay3 x3 q k v = head (k0_pay2 x3) q k v := rfl
theorem pay_h1 : k0_pay4 mk q k v = head mk q k v := rfl
theorem pay_h2 : k0_pay7 mk (k0_pay5 q) (k0_pay6 k) v = head mk q k v := rfl
theorem pay_h3 : k0_pay11 mk (k0_pay8 v) (k0_pay9 q k) (k0_pay10 (F := F)) = head mk q k v := rfl
theorem pay_h4 : k0_pay15 (k0_pay12 v) (k0_pay13 mk q k) (k0_pay14 mk q k) = head mk q k v := rfl
theorem pay_h5 : k0_pay17 (k0_pay16 mk q k v) = head mk q k v := rfl
theorem pay_h6 : k0_pay18 mk q k v = head mk q k v := rfl
theorem pay_h7 : k0_pay20 mk (k0_pay19 q) k v = head mk q k v := rfl
theorem pay_h8 : k0_pay24 mk (k0_pay21 q) (k0_pay22 k) (k0_pay23 v) = head mk q k v := rfl
theorem pay_h9 : k0_pay28 (k0_pay25 v) (k0_pay26 mk q k) (k0_pay27 mk q k) = head mk q k v := rfl
theorem pay_h10 : k0_pay30 (k0_pay29 mk q k v) = head mk q k v := rfl
theorem pay_h11 : k0_pay31 mk q k v = head mk q k v := rfl
theorem pay_h12 : k0_pay32 mk q k v = head mk q k v := rfl
theorem pay_h13 : k0_pay35 mk (k0_pay33 q) (k0_pay34 k) v = head mk q k v := rfl
theorem pay_h14 : k0_pay38 mk (k0_pay36 v) (k0_pay37 q k) = head mk q k v := rfl
theorem pay_h15 : k0_pay1 (k0_pay39 v) (k0_pay40 mk q k) (k0_pay41 mk q k) = head mk q k v := rfl

end Cert.KernelIdeal.Attn

end
-- ==== Proof.LibKeepdims.lean ====
/-
  Layout operations of a row-reduced block, read at an index by coordinates.

  A kernel that reduces an [a, b] block along its rows and uses the result against the block again (a row maximum
  subtracted, a row sum divided by) passes it through three re-layings: the reduced vector [a] is cast to a column
  [a, 1], and the column is broadcast back over the b lanes to [a, b]. A pipelined block of a rank-4 array with two
  leading unit axes is cast to the matrix [a, b] it holds, and a matrix result is cast back. Each lemma reads one of
  these at an index written by its coordinates; none depends on a program.
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes to [a, b] reads, at (i, j), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A block [1, 1, a, b] cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- A matrix [a, b] cast to the block [1, 1, a, b] reads, at (u, w, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

end Idealize.ShloMosaic.Keepdims

end
-- ==== Proof.Spec.lean ====
/-
  Scaled dot-product attention with an additive mask, as a function on the extended reals.

  For one query row: the scores are s k = (∑ e, q e · key k e) · c + mask k; the row maximum is the fold of max over
  the scores from the reduction's starting value; the weights are exp (s k − max) divided by their sum over k; the
  result at feature d is ∑ k, weight k · value k d. The array function `attn` applies this to row (b, h, q) of the
  query array against all rows of head (b, h) of the key and value arrays and row (b, 0, q) of the mask, which is
  shared by the heads. Nothing here is rounded and nothing is reordered: the sums are finite sums of extended reals.
-/
import Idealize.ShloMosaic.PureOps.Ideal
import Idealize.ShloMosaic.Lib.ValueIdx

noncomputable section

open scoped BigOperators

namespace Attn

open Idealize.ShloMosaic Idealize.ShloMosaic.ValueIdx

/-- One score: the dot product of a query row and a key row, scaled, plus the mask entry. -/
def score {d : ℕ} (c : EReal) (q k : Fin d → EReal) (mk : EReal) : EReal := (∑ e, q e * k e) * c + mk

/-- The maximum of a row of scores, folded from the value `neg` the reduction starts at. -/
def rowMax {n : ℕ} (neg : EReal) (s : Fin n → EReal) : EReal := (Finset.univ : Finset (Fin n)).fold max neg s

/-- A score exponentiated after the row maximum is subtracted. -/
def expRow {n : ℕ} (neg : EReal) (s : Fin n → EReal) (k : Fin n) : EReal := Ideal.exp (s k - rowMax neg s)

/-- The softmax weight of position k: its exponential over the row's sum of exponentials. -/
def weight {n : ℕ} (neg : EReal) (s : Fin n → EReal) (k : Fin n) : EReal :=
  Ideal.div (expRow neg s k) (∑ k', expRow neg s k')

/-- The weighted sum of a column of values under the row's softmax weights. -/
def out {n : ℕ} (neg : EReal) (s v : Fin n → EReal) : EReal := ∑ k, weight neg s k * v k

/-- The scale 1/8 = 1/√64, as the f32 word both programs carry. -/
def C : EReal := Ideal.ofBits .f32 0x3E000000#32
/-- The value both max-reductions start from, as the f32 word both programs carry. -/
def NEG : EReal := Ideal.ofBits .f32 0xFF800000#32

abbrev SQ : Shape := ⟨4, ![2, 16, 2048, 64]⟩
abbrev SM : Shape := ⟨4, ![2, 1, 2048, 2048]⟩

/-- Attention at batch b, head h, query position q, feature d. -/
def attnAt (Q K V : SQ.Idx → EReal) (M : SM.Idx → EReal) (b : Fin 2) (h : Fin 16) (q : Fin 2048) (d : Fin 64) : EReal :=
  out NEG (fun kk : Fin 2048 => score C (fun e : Fin 64 => Q (ix4 b h q e)) (fun e : Fin 64 => K (ix4 b h kk e)) (M (ix4 b (0 : Fin 1) q kk)))
    (fun kk : Fin 2048 => V (ix4 b h kk d))

/-- The whole result array. -/
def attn (Q K V : SQ.Idx → EReal) (M : SM.Idx → EReal) : SQ.Idx → EReal :=
  fun i => attnAt Q K V M (i 0) (i 1) (i 2) (i 3)

end Attn

end
-- ==== Proof.HeadValue.lean ====
/-
  One head of the kernel body, read at an index over the extended reals.

  At the exact instance a change of float format is the identity, a matrix product into a zero accumulator is the
  plain sum of products over the contracted axis, a row maximum is the fold of max over the row's entries and a row
  sum the sum over them. So the head's stored block at row r and feature d is the softmax-weighted sum of the value
  block's column d, the weights computed from the scores of query row r against every key row plus the mask's row r:
  the function `Attn.out` of those scores and that column.
-/
import proofs.«147944_j39676907886819_2_alg».proof.Proof.Head
import proofs.«147944_j39676907886819_2_alg».proof.Proof.LibKeepdims
import proofs.«147944_j39676907886819_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Attn

open Cert.KernelIdeal Cert.KernelIdeal.Gen Idealize.ShloMosaic Idealize.SL.Sem
open Idealize.ShloMosaic.ValueIdx Idealize.ShloMosaic.Keepdims

/-- The record of the query-by-key product: both operands contract their feature axis. -/
abbrev dQK := dot_S256x64_S2048x64_S256x2048_1_1_0_0_n_n
/-- The record of the weights-by-value product: the weights contract their key axis, the values their row axis. -/
abbrev dPV := dot_S256x2048_S2048x64_S256x64_1_0_0_1_n_n

/-- The query-by-key product into zero at (r, kk): the dot product of query row r and key row kk. -/
theorem qk_apply (A : FVec Ideal S256x64 .bf16) (B : FVec Ideal S2048x64 .bf16) (r : Fin 256) (kk : Fin 2048) :
    matmul dQK none A B (constant S256x2048 .f32 0x00000000#32) (ix2 r kk) = ∑ e : Fin 64, A (ix2 r e) * B (ix2 kk e) := by
  simp only [matmul]
  rw [Ideal.matmul_constant_zero_apply, ← Equiv.sum_comp (contrEquiv1 dQK 64 rfl rfl).symm]
  refine Finset.sum_congr rfl fun e _ => ?_
  have hk := contrEquiv1_symm_val dQK 64 rfl rfl e
  have el : dQK.lhsIdx (ix2 r kk) ((contrEquiv1 dQK 64 rfl rfl).symm e) = ix2 r e := funext fun a => Fin.ext (by
    match a with
    | ⟨0, _⟩ => rfl
    | ⟨1, _⟩ => exact (dQK.lhsIdx_val_of_single rfl _ _).trans hk)
  have er : dQK.rhsIdx (ix2 r kk) ((contrEquiv1 dQK 64 rfl rfl).symm e) = ix2 kk e := funext fun a => Fin.ext (by
    match a with
    | ⟨0, _⟩ => rfl
    | ⟨1, _⟩ => exact (dQK.rhsIdx_val_of_single rfl _ _).trans hk)
  rw [el, er]

/-- The weights-by-value product into zero at (r, d): the sum over key positions of weight times value. -/
theorem pvmm_apply (A : FVec Ideal S256x2048 .bf16) (B : FVec Ideal S2048x64 .bf16) (r : Fin 256) (d : Fin 64) :
    matmul dPV none A B (constant S256x64 .f32 0x00000000#32) (ix2 r d) = ∑ kk : Fin 2048, A (ix2 r kk) * B (ix2 kk d) := by
  simp only [matmul]
  rw [Ideal.matmul_constant_zero_apply, ← Equiv.sum_comp (contrEquiv1 dPV 2048 rfl rfl).symm]
  refine Finset.sum_congr rfl fun kk _ => ?_
  have hk := contrEquiv1_symm_val dPV 2048 rfl rfl kk
  have el : dPV.lhsIdx (ix2 r d) ((contrEquiv1 dPV 2048 rfl rfl).symm kk) = ix2 r kk := funext fun a => Fin.ext (by
    match a with
    | ⟨0, _⟩ => rfl
    | ⟨1, _⟩ => exact (dPV.lhsIdx_val_of_single rfl _ _).trans hk)
  have er : dPV.rhsIdx (ix2 r d) ((contrEquiv1 dPV 2048 rfl rfl).symm kk) = ix2 kk d := funext fun a => Fin.ext (by
    match a with
    | ⟨0, _⟩ => exact (dPV.rhsIdx_val_of_single rfl _ _).trans hk
    | ⟨1, _⟩ => rfl)
  rw [el, er]

variable (mk : FVec Ideal S256x2048 .f32) (q : Vec Ideal S1x1x256x64 .f32) (k v : Vec Ideal S1x1x2048x64 .f32)

/-- The scores at (r, kk). -/
theorem scores_apply (r : Fin 256) (kk : Fin 2048) :
    scores mk q k (ix2 r kk) = Attn.score Attn.C (fun e : Fin 64 => q (ix4 (0 : Fin 1) (0 : Fin 1) r e))
      (fun e : Fin 64 => k (ix4 (0 : Fin 1) (0 : Fin 1) kk e)) (mk (ix2 r kk)) := by
  unfold scores Attn.score Attn.C
  show matmul dQK none _ _ (constant S256x2048 .f32 0x00000000#32) (ix2 r kk) * Ideal.ofBits .f32 0x3E000000#32 + mk (ix2 r kk) = _
  rw [qk_apply]
  refine congrArg (fun z => z * Ideal.ofBits .f32 0x3E000000#32 + mk (ix2 r kk)) (Finset.sum_congr rfl fun e _ => ?_)
  show shapeCast S256x64 q _ (ix2 r e) * shapeCast S2048x64 k _ (ix2 kk e) = _
  rw [shapeCast_11ab_ab_apply, shapeCast_11ab_ab_apply]

/-- The exponentials at (r, kk): the row's maximum subtracted first. -/
theorem expd_apply (s : FVec Ideal S256x2048 .f32) (r : Fin 256) (kk : Fin 2048) :
    expd s (ix2 r kk) = Attn.expRow Attn.NEG (fun k' : Fin 2048 => s (ix2 r k')) kk := by
  unfold expd Attn.expRow Attn.rowMax Attn.NEG
  show Ideal.exp (s (ix2 r kk) - broadcastTo S256x2048 _ broadcasts_S256x1_S256x2048 (ix2 r kk)) = _
  rw [broadcastTo_a1_ab_apply, shapeCast_a_a1_apply]
  refine congrArg (fun z => Ideal.exp (s (ix2 r kk) - z)) ?_
  refine (Ideal.multiReduction_maximumf_single s 0xFF800000#32 reduces_S256x2048_S256 (.inl rfl) rfl (ix1 r)).trans ?_
  show (Finset.univ : Finset (Fin 2048)).fold max (Ideal.ofBits .f32 0xFF800000#32) (s ∘ reduces_S256x2048_S256.lift (ix1 r)) = _
  refine congrArg ((Finset.univ : Finset (Fin 2048)).fold max (Ideal.ofBits .f32 0xFF800000#32)) (funext fun k' => ?_)
  exact congrArg s (funext fun a => Fin.ext (by match a with | ⟨0, _⟩ => rfl | ⟨1, _⟩ => rfl))

/-- A row's sum, read off the column it is kept in. -/
theorem rowSums_apply (e : FVec Ideal S256x2048 .f32) (r : Fin 256) (u : Fin 1) :
    rowSums e (ix2 r u) = ∑ k' : Fin 2048, e (ix2 r k') := by
  unfold rowSums
  rw [shapeCast_a_a1_apply]
  refine (Ideal.multiReduction_add_single e 0x00000000#32 reduces_S256x2048_S256 (.inl rfl) rfl (ix1 r)).trans ?_
  show ∑ k' : Fin 2048, e (reduces_S256x2048_S256.lift (ix1 r) k') = _
  refine Finset.sum_congr rfl fun k' _ => ?_
  exact congrArg e (funext fun a => Fin.ext (by match a with | ⟨0, _⟩ => rfl | ⟨1, _⟩ => rfl))

/-- The weights at (r, kk): the entry over its row's sum. -/
theorem probs_apply (e : FVec Ideal S256x2048 .f32) (r : Fin 256) (kk : Fin 2048) :
    probs e (ix2 r kk) = Ideal.div (e (ix2 r kk)) (∑ k' : Fin 2048, e (ix2 r k')) := by
  unfold probs
  show Ideal.div (e (ix2 r kk)) (broadcastTo S256x2048 (rowSums e) broadcasts_S256x1_S256x2048 (ix2 r kk)) = _
  rw [broadcastTo_a1_ab_apply, rowSums_apply]

/-- The stored block at (·, ·, r, d): the weights' row r against the value block's column d. -/
theorem pv_apply (p : FVec Ideal S256x2048 .f32) (u w : Fin 1) (r : Fin 256) (d : Fin 64) :
    pv p v (ix4 u w r d) = ∑ kk : Fin 2048, p (ix2 r kk) * v (ix4 (0 : Fin 1) (0 : Fin 1) kk d) := by
  unfold pv
  rw [shapeCast_ab_11ab_apply, pvmm_apply]
  refine Finset.sum_congr rfl fun kk _ => ?_
  show p (ix2 r kk) * shapeCast S2048x64 v _ (ix2 kk d) = _
  rw [shapeCast_11ab_ab_apply]

/-- ONE HEAD AT AN INDEX: the softmax-weighted sum of the value block's column d under the scores of query row r. -/
theorem head_apply (u w : Fin 1) (r : Fin 256) (d : Fin 64) :
    head mk q k v (ix4 u w r d)
      = Attn.out Attn.NEG (fun kk : Fin 2048 => Attn.score Attn.C (fun e : Fin 64 => q (ix4 (0 : Fin 1) (0 : Fin 1) r e))
          (fun e : Fin 64 => k (ix4 (0 : Fin 1) (0 : Fin 1) kk e)) (mk (ix2 r kk)))
        (fun kk : Fin 2048 => v (ix4 (0 : Fin 1) (0 : Fin 1) kk d)) := by
  unfold head
  rw [pv_apply]
  unfold Attn.out Attn.weight
  refine Finset.sum_congr rfl fun kk _ => ?_
  rw [probs_apply]
  simp only [expd_apply, scores_apply]

end Cert.KernelIdeal.Attn

end
-- ==== Proof.BlockFn.lean ====
/-
  The output block of one grid point, as one function of the point's four input blocks.

  The body stores sixteen pieces into the output block [1, 16, 256, 64], piece h at offset (0, h, 0, 0); piece h is
  the head function of the mask block and of the slices at the same offset of the query, key and value blocks. Read
  at its embedded index (0, h, r, d), each piece is the one function `blockAt` of the whole blocks: attention of
  query row (0, h, r) against the key and value rows of head h and the mask's row r. The pieces tile the block, so
  the block the body leaves is that function everywhere.
-/
import proofs.«147944_j39676907886819_2_alg».proof.Proof.HeadValue

noncomputable section

open scoped BigOperators

namespace Cert.KernelIdeal.Attn

open Cert.KernelIdeal Cert.KernelIdeal.Gen Idealize.ShloMosaic Idealize.SL.Sem
open Idealize.ShloMosaic.ValueIdx Idealize.ShloMosaic.Keepdims

variable (x0 : Vec Ideal S1x16x256x64 .f32) (x1 x2 : Vec Ideal S1x16x2048x64 .f32) (x3 : Vec Ideal S1x1x256x2048 .f32)

/-- The block at head h, row r, feature d. -/
def blockAt (h : Fin 16) (r : Fin 256) (d : Fin 64) : EReal :=
  Attn.out Attn.NEG (fun kk : Fin 2048 => Attn.score Attn.C (fun e : Fin 64 => x0 (ix4 (0 : Fin 1) h r e))
      (fun e : Fin 64 => x1 (ix4 (0 : Fin 1) h kk e)) (x3 (ix4 (0 : Fin 1) (0 : Fin 1) r kk)))
    (fun kk : Fin 2048 => x2 (ix4 (0 : Fin 1) h kk d))

/-- The whole block. -/
def blockFn : S1x16x256x64.Idx → EReal := fun y => blockAt x0 x1 x2 x3 (y 1) (y 2) (y 3)

theorem hz4 : (![0, 0, 0, 0] : Fin 4 → Nat) = fun _ => 0 := funext fun a => by fin_cases a <;> rfl

/-- The mask block as the body sees it, at (r, kk). -/
theorem mask_apply (r : Fin 256) (kk : Fin 2048) :
    k0_pay2 (View.ld x3 r0_0) (ix2 r kk) = x3 (ix4 (0 : Fin 1) (0 : Fin 1) r kk) := by
  unfold k0_pay2
  rw [View.ld_unit_zero (S := S1x1x256x2048) hz4]
  exact shapeCast_11ab_ab_apply x3 _ r kk

/-- A load of head h's slice of a [1, 16, 256, 64] block reads the block at (0, h, ·, ·). -/
theorem ldq_apply (h : Fin 16) (inb : ∀ a, (![0, h.val, 0, 0] : Fin 4 → Nat) a + S1x1x256x64.size a ≤ S1x16x256x64.size a)
    (i : Fin 256) (j : Fin 64) :
    View.ld x0 (Rect.unit (s := S1x16x256x64) ![0, h.val, 0, 0] S1x1x256x64.size inb) (ix4 (0 : Fin 1) (0 : Fin 1) i j)
      = x0 (ix4 (0 : Fin 1) h i j) := by
  show x0 ((Rect.unit (s := S1x16x256x64) ![0, h.val, 0, 0] S1x1x256x64.size inb).idx (ix4 (0 : Fin 1) (0 : Fin 1) i j)) = _
  refine congrArg x0 (funext fun a => Fin.ext ?_)
  match a with
  | ⟨0, _⟩ => rfl
  | ⟨1, _⟩ => rfl
  | ⟨2, _⟩ => show 0 + 1 * i.val = i.val; omega
  | ⟨3, _⟩ => show 0 + 1 * j.val = j.val; omega

/-- A load of head h's slice of a [1, 16, 2048, 64] block reads the block at (0, h, ·, ·). -/
theorem ldk_apply (x : Vec Ideal S1x16x2048x64 .f32) (h : Fin 16)
    (inb : ∀ a, (![0, h.val, 0, 0] : Fin 4 → Nat) a + S1x1x2048x64.size a ≤ S1x16x2048x64.size a) (i : Fin 2048) (j : Fin 64) :
    View.ld x (Rect.unit (s := S1x16x2048x64) ![0, h.val, 0, 0] S1x1x2048x64.size inb) (ix4 (0 : Fin 1) (0 : Fin 1) i j)
      = x (ix4 (0 : Fin 1) h i j) := by
  show x ((Rect.unit (s := S1x16x2048x64) ![0, h.val, 0, 0] S1x1x2048x64.size inb).idx (ix4 (0 : Fin 1) (0 : Fin 1) i j)) = _
  refine congrArg x (funext fun a => Fin.ext ?_)
  match a with
  | ⟨0, _⟩ => rfl
  | ⟨1, _⟩ => rfl
  | ⟨2, _⟩ => show 0 + 1 * i.val = i.val; omega
  | ⟨3, _⟩ => show 0 + 1 * j.val = j.val; omega

/-- Where head h's piece sits in the block: its local index (·, ·, r, d) is the block's (0, h, r, d). -/
theorem emb_piece (h : Fin 16) (inb : ∀ a, (![0, h.val, 0, 0] : Fin 4 → Nat) a + S1x1x256x64.size a ≤ S1x16x256x64.size a)
    (u w : Fin 1) (r : Fin 256) (d : Fin 64) :
    (Rect.unit (s := S1x16x256x64) ![0, h.val, 0, 0] S1x1x256x64.size inb).emb (ix4 u w r d) = ix4 (0 : Fin 1) h r d := by
  refine funext fun a => Fin.ext ?_
  have hu : u.val = 0 := by omega
  have hw : w.val = 0 := by omega
  match a with
  | ⟨0, _⟩ => show 0 + 1 * u.val = 0; omega
  | ⟨1, _⟩ => show h.val + 1 * w.val = h.val; omega
  | ⟨2, _⟩ => show 0 + 1 * r.val = r.val; omega
  | ⟨3, _⟩ => show 0 + 1 * d.val = d.val; omega

/-- HEAD h'S PIECE is the block function at the piece's embedded index. -/
theorem piece (h : Fin 16)
    (inbq : ∀ a, (![0, h.val, 0, 0] : Fin 4 → Nat) a + S1x1x256x64.size a ≤ S1x16x256x64.size a)
    (inbk : ∀ a, (![0, h.val, 0, 0] : Fin 4 → Nat) a + S1x1x2048x64.size a ≤ S1x16x2048x64.size a)
    (x : S1x1x256x64.Idx) :
    head (k0_pay2 (View.ld x3 r0_0)) (View.ld x0 (Rect.unit (s := S1x16x256x64) ![0, h.val, 0, 0] S1x1x256x64.size inbq))
        (View.ld x1 (Rect.unit (s := S1x16x2048x64) ![0, h.val, 0, 0] S1x1x2048x64.size inbk))
        (View.ld x2 (Rect.unit (s := S1x16x2048x64) ![0, h.val, 0, 0] S1x1x2048x64.size inbk)) x
      = blockFn x0 x1 x2 x3 ((Rect.unit (s := S1x16x256x64) ![0, h.val, 0, 0] S1x1x256x64.size inbq).emb x) := by
  obtain ⟨u, w, r, d, rfl⟩ : ∃ (u w : Fin 1) (r : Fin 256) (d : Fin 64), x = ix4 u w r d := ⟨x 0, x 1, x 2, x 3, eq_ix4 x⟩
  rw [head_apply, emb_piece]
  exact congrArg₂ (Attn.out Attn.NEG)
    (funext fun kk => congr (congrArg₂ (Attn.score Attn.C) (funext fun e => ldq_apply x0 h inbq r e)
      (funext fun e => ldk_apply x1 h inbk kk e)) (mask_apply x3 r kk))
    (funext fun kk => ldk_apply x2 h inbk kk d)

/-- THE BLOCK THE BODY LEAVES is the block function of the four input blocks. -/
theorem out_eq : out0_4 x0 x1 x2 x3 = blockFn x0 x1 x2 x3 := by
  funext y
  unfold out0_4
  rw [pay_h15, pay_h14, pay_h13, pay_h12, pay_h11, pay_h10, pay_h9, pay_h8, pay_h7, pay_h6, pay_h5, pay_h4, pay_h3, pay_h2, pay_h1, pay_h0]
  refine View.canon_apply_of_pieces (Val := Elt Ideal) (e := .f32) (blockFn x0 x1 x2 x3) _ ?_ y (cover0_4 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact piece x0 x1 x2 x3 15 _ _
  · exact piece x0 x1 x2 x3 14 _ _
  · exact piece x0 x1 x2 x3 13 _ _
  · exact piece x0 x1 x2 x3 12 _ _
  · exact piece x0 x1 x2 x3 11 _ _
  · exact piece x0 x1 x2 x3 10 _ _
  · exact piece x0 x1 x2 x3 9 _ _
  · exact piece x0 x1 x2 x3 8 _ _
  · exact piece x0 x1 x2 x3 7 _ _
  · exact piece x0 x1 x2 x3 6 _ _
  · exact piece x0 x1 x2 x3 5 _ _
  · exact piece x0 x1 x2 x3 4 _ _
  · exact piece x0 x1 x2 x3 3 _ _
  · exact piece x0 x1 x2 x3 2 _ _
  · exact piece x0 x1 x2 x3 1 _ _
  · exact piece x0 x1 x2 x3 0 _ _

end Cert.KernelIdeal.Attn

end
-- ==== Proof.ArrayValue.lean ====
/-
  From the blocks to the whole result array.

  Grid point t = (b, qi) stages query rows qi·256 … qi·256+255 of batch b for all sixteen heads, the whole key and
  value arrays of batch b, and the same rows of the mask of batch b; it writes back the output block at the query
  block's place. An element of the block the body leaves is attention of its query row against the keys and values
  of its head and batch, so the block written back is the block of the array function `Attn.attn` at the output
  window's place. The sixteen output blocks tile the array (batch b, rows by 256), so the array ends as that function.
-/
import proofs.«147944_j39676907886819_2_alg».proof.Proof.BlockFn
import proofs.«147944_j39676907886819_2_alg».proof.Proof.Gen.KernelIdeal.Value

noncomputable section

open scoped BigOperators

namespace Cert.KernelIdeal.Attn

open Cert.KernelIdeal Cert.KernelIdeal.Gen Idealize.ShloMosaic Idealize.ShloMosaic.TcCoe Idealize.SL.Sem
open Idealize.ShloMosaic.Pipeline (Dat)
open Idealize.ShloMosaic.ValueIdx

/-- A block element, under the correspondence of the four input blocks with the four arrays at batch b and
    query-row block qi, is the array function at the corresponding array index. -/
theorem blockAt_eq_attnAt (Q K Vv : Attn.SQ.Idx → EReal) (M : Attn.SM.Idx → EReal)
    (x0 : Vec Ideal S1x16x256x64 .f32) (x1 x2 : Vec Ideal S1x16x2048x64 .f32) (x3 : Vec Ideal S1x1x256x2048 .f32)
    (b : Fin 2) (qi : Nat) (hqi : qi < 8)
    (h0 : ∀ (h : Fin 16) (r : Fin 256) (e : Fin 64), x0 (ix4 (0 : Fin 1) h r e) = Q (ix4 b h (⟨qi * 256 + r.val, by omega⟩ : Fin 2048) e))
    (h1 : ∀ (h : Fin 16) (kk : Fin 2048) (e : Fin 64), x1 (ix4 (0 : Fin 1) h kk e) = K (ix4 b h kk e))
    (h2 : ∀ (h : Fin 16) (kk : Fin 2048) (d : Fin 64), x2 (ix4 (0 : Fin 1) h kk d) = Vv (ix4 b h kk d))
    (h3 : ∀ (r : Fin 256) (kk : Fin 2048), x3 (ix4 (0 : Fin 1) (0 : Fin 1) r kk) = M (ix4 b (0 : Fin 1) (⟨qi * 256 + r.val, by omega⟩ : Fin 2048) kk))
    (h : Fin 16) (r : Fin 256) (d : Fin 64) :
    blockAt x0 x1 x2 x3 h r d = Attn.attnAt Q K Vv M b h (⟨qi * 256 + r.val, by omega⟩ : Fin 2048) d := by
  unfold blockAt Attn.attnAt
  simp only [h0, h1, h2, h3]

variable (m : (ℓ : Loc nD τ sig) → Buf (Elt Ideal) ℓ) (ρ : Dev nD → PrngReg)

/-- The printed index maps, decided over the sixteen grid points: the output block sits at (b, 0, qi, 0); the query
    and mask blocks move with it; the key and value blocks move with its batch coordinate only. -/
theorem idx_facts : ∀ t : Fin cfg0.N,
    win0_4.index t (0 : Fin 4) < 2 ∧ win0_4.index t (1 : Fin 4) = 0 ∧ win0_4.index t (2 : Fin 4) < 8 ∧ win0_4.index t (3 : Fin 4) = 0
    ∧ win0_0.index t (0 : Fin 4) = win0_4.index t (0 : Fin 4) ∧ win0_0.index t (1 : Fin 4) = 0
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = 0
    ∧ win0_1.index t (2 : Fin 4) = 0 ∧ win0_1.index t (3 : Fin 4) = 0
    ∧ win0_2.index t (0 : Fin 4) = win0_4.index t (0 : Fin 4) ∧ win0_2.index t (1 : Fin 4) = 0
    ∧ win0_2.index t (2 : Fin 4) = 0 ∧ win0_2.index t (3 : Fin 4) = 0
    ∧ win0_3.index t (0 : Fin 4) = win0_4.index t (0 : Fin 4) ∧ win0_3.index t (1 : Fin 4) = 0
    ∧ win0_3.index t (2 : Fin 4) = win0_4.index t (2 : Fin 4) ∧ win0_3.index t (3 : Fin 4) = 0 :=
  (by decide +kernel : ∀ t : Fin grid0.N, _)

/-- Every (batch, query-row block) is SOME point's output block. -/
theorem idx_onto : ∀ (q0 : Fin 2) (q2 : Fin 8), ∃ t : Fin cfg0.N, win0_4.index t = ![q0.val, 0, q2.val, 0] :=
  (by decide +kernel : ∀ (q0 : Fin 2) (q2 : Fin 8), ∃ t : Fin grid0.N, win0_4.index t = ![q0.val, 0, q2.val, 0])

/-- WHAT POINT t WRITES BACK is block t of the attention function of the four arrays as the region finds them. -/
theorem flushed_eq (c : Dev nD) (t : Fin cfg0.N) :
    (dats m 0 c).flushed 4 t = ((cfg0.win 4).blk t).view.read (Elt Ideal)
      (Attn.attn (V m c main_arg0) (V m c main_arg1) (V m c main_arg2) (V m c main_arg3)) := by
  rw [Value.flushed4, out_eq]
  obtain ⟨f0, f1, f2, f3, a0, a1, a2, a3, k0, k1, k2, k3, v0, v1, v2, v3, m0, m1, m2, m3⟩ := idx_facts t
  funext j
  obtain ⟨u, h, r, d, rfl⟩ : ∃ (u : Fin 1) (h : Fin 16) (r : Fin 256) (d : Fin 64), j = ix4 u h r d :=
    ⟨j 0, j 1, j 2, j 3, eq_ix4 j⟩
  have hu : u.val = 0 := by omega
  have hr : r.val < 256 := r.isLt
  show blockAt (iblk m c 0 t) (iblk m c 1 t) (iblk m c 2 t) (iblk m c 3 t) h r d
    = Attn.attn (V m c main_arg0) (V m c main_arg1) (V m c main_arg2) (V m c main_arg3) (((cfg0.win 4).blk t).view.emb (ix4 u h r d))
  have he : ((cfg0.win 4).blk t).view.emb (ix4 u h r d)
      = ix4 (⟨win0_4.index t (0 : Fin 4), f0⟩ : Fin 2) h (⟨win0_4.index t (2 : Fin 4) * 256 + r.val, by omega⟩ : Fin 2048) d := by
    funext a; apply Fin.ext
    match a with
    | ⟨0, _⟩ => show win0_4.index t (0 : Fin 4) * 1 + 1 * u.val = win0_4.index t (0 : Fin 4); omega
    | ⟨1, _⟩ => show win0_4.index t (1 : Fin 4) * 16 + 1 * h.val = h.val; omega
    | ⟨2, _⟩ => show win0_4.index t (2 : Fin 4) * 256 + 1 * r.val = win0_4.index t (2 : Fin 4) * 256 + r.val; omega
    | ⟨3, _⟩ => show win0_4.index t (3 : Fin 4) * 64 + 1 * d.val = d.val; omega
  rw [he]
  refine blockAt_eq_attnAt (V m c main_arg0) (V m c main_arg1) (V m c main_arg2) (V m c main_arg3)
    (iblk m c 0 t) (iblk m c 1 t) (iblk m c 2 t) (iblk m c 3 t) (⟨win0_4.index t (0 : Fin 4), f0⟩ : Fin 2)
    (win0_4.index t (2 : Fin 4)) f2 ?_ ?_ ?_ ?_ h r d
  · intro h' r' e
    have hr' : r'.val < 256 := r'.isLt
    show V m c main_arg0 (((cfg0.win 0).blk t).view.emb (ix4 (0 : Fin 1) h' r' e)) = _
    refine congrArg (V m c main_arg0) (funext fun a => Fin.ext ?_)
    match a with
    | ⟨0, _⟩ => show win0_0.index t (0 : Fin 4) * 1 + 1 * 0 = win0_4.index t (0 : Fin 4); omega
    | ⟨1, _⟩ => show win0_0.index t (1 : Fin 4) * 16 + 1 * h'.val = h'.val; omega
    | ⟨2, _⟩ => show win0_0.index t (2 : Fin 4) * 256 + 1 * r'.val = win0_4.index t (2 : Fin 4) * 256 + r'.val; omega
    | ⟨3, _⟩ => show win0_0.index t (3 : Fin 4) * 64 + 1 * e.val = e.val; omega
  · intro h' kk e
    show V m c main_arg1 (((cfg0.win 1).blk t).view.emb (ix4 (0 : Fin 1) h' kk e)) = _
    refine congrArg (V m c main_arg1) (funext fun a => Fin.ext ?_)
    match a with
    | ⟨0, _⟩ => show win0_1.index t (0 : Fin 4) * 1 + 1 * 0 = win0_4.index t (0 : Fin 4); omega
    | ⟨1, _⟩ => show win0_1.index t (1 : Fin 4) * 16 + 1 * h'.val = h'.val; omega
    | ⟨2, _⟩ => show win0_1.index t (2 : Fin 4) * 2048 + 1 * kk.val = kk.val; omega
    | ⟨3, _⟩ => show win0_1.index t (3 : Fin 4) * 64 + 1 * e.val = e.val; omega
  · intro h' kk e
    show V m c main_arg2 (((cfg0.win 2).blk t).view.emb (ix4 (0 : Fin 1) h' kk e)) = _
    refine congrArg (V m c main_arg2) (funext fun a => Fin.ext ?_)
    match a with
    | ⟨0, _⟩ => show win0_2.index t (0 : Fin 4) * 1 + 1 * 0 = win0_4.index t (0 : Fin 4); omega
    | ⟨1, _⟩ => show win0_2.index t (1 : Fin 4) * 16 + 1 * h'.val = h'.val; omega
    | ⟨2, _⟩ => show win0_2.index t (2 : Fin 4) * 2048 + 1 * kk.val = kk.val; omega
    | ⟨3, _⟩ => show win0_2.index t (3 : Fin 4) * 64 + 1 * e.val = e.val; omega
  · intro r' kk
    have hr' : r'.val < 256 := r'.isLt
    show V m c main_arg3 (((cfg0.win 3).blk t).view.emb (ix4 (0 : Fin 1) (0 : Fin 1) r' kk)) = _
    refine congrArg (V m c main_arg3) (funext fun a => Fin.ext ?_)
    match a with
    | ⟨0, _⟩ => show win0_3.index t (0 : Fin 4) * 1 + 1 * 0 = win0_4.index t (0 : Fin 4); omega
    | ⟨1, _⟩ => show win0_3.index t (1 : Fin 4) * 1 + 1 * 0 = 0; omega
    | ⟨2, _⟩ => show win0_3.index t (2 : Fin 4) * 256 + 1 * r'.val = win0_4.index t (2 : Fin 4) * 256 + r'.val; omega
    | ⟨3, _⟩ => show win0_3.index t (3 : Fin 4) * 2048 + 1 * kk.val = kk.val; omega

/-- An index of the array is in point t's output block iff each coordinate is in the block's range on its axis. -/
theorem mem_blk (t : Fin cfg0.N) (i : S2x16x2048x64.Idx) :
    i ∈ ((cfg0.win 4).blk t).view.set ↔ ∀ a : Fin 4, win0_4.index t a * S1x16x256x64.size a ≤ (i a).val
      ∧ (i a).val < win0_4.index t a * S1x16x256x64.size a + S1x16x256x64.size a := by
  show i ∈ ((View.whole main_v0).slice (win0_4.rect t)).set ↔ _
  rw [View.set_slice_whole, Rect.mem_set_unit]
  exact Iff.rfl

/-- Every index of the result array is in some point's output block: batch (i 0), rows block (i 2) / 256. -/
theorem covered (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 256, by omega⟩
  have q0 : win0_4.index t (0 : Fin 4) = (i 0).val := congrFun ht 0
  have q1 : win0_4.index t (1 : Fin 4) = 0 := congrFun ht 1
  have q2 : win0_4.index t (2 : Fin 4) = (i 2).val / 256 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-- THE RESULT ARRAY after the run is the attention function of the four argument arrays. -/
theorem final (c : Dev nD) : (dats m 0 c).arrAt 4 cfg0.N
    = Attn.attn (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) (covered)

/-- The kernel's run, read: the result array at the attention function of the arguments, the arguments unchanged. -/
theorem run : θ_run defs (onTc (τ := τ) (main (F := Ideal))) ⟨m, fun _ => 0, ρ⟩ fun r => ∀ c : Dev nD,
      r.2.mem ((c : Thread nD τ).loc main_v0)
        = Attn.attn (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Attn

end
-- ==== Proof.RefValue.lean ====
/-
  The reference program is the attention function.

  Stage by stage at explicit coordinates (b, h, q, k): the first contraction over the feature axis, scaled, plus the
  mask broadcast over the heads, is the score; the host's max-reduction over the key axis is the fold of max from the
  initial value, and the elementwise maximum with that same initial value afterwards changes nothing, since the fold
  is already above its starting value; the exponential of the difference, its sum over the key axis from zero, and the
  quotient are the softmax weights; the second contraction over the key axis against the values is the result.
-/
import proofs.«147944_j39676907886819_2_alg».proof.Proof.Gen.ReferenceIdeal.Read
import proofs.«147944_j39676907886819_2_alg».proof.Proof.Spec
import Idealize.ShloMosaic.PureOps.Ideal.Laws
import Idealize.ShloMosaic.Lib.ValueIdx

noncomputable section

open scoped BigOperators

namespace Cert.ReferenceIdeal.RefAttn

open Cert.ReferenceIdeal Cert.ReferenceIdeal.Gen Cert.ReferenceIdeal.Read Idealize.ShloMosaic Idealize.SL.Sem
open Idealize.ShloMosaic.ValueIdx

variable (x0 x1 x2 : (⟨S2x16x2048x64, .f32⟩ : BufTy).Contents (Elt Ideal)) (x3 : (⟨S2x1x2048x2048, .f32⟩ : BufTy).Contents (Elt Ideal))

/-- The masked, scaled scores at (b, h, q, kk). -/
theorem v4_at (b : Fin 2) (h : Fin 16) (q kk : Fin 2048) :
    val_main_v4 (F := Ideal) x0 x1 x3 (ix4 b h q kk)
      = Attn.score Attn.C (fun e : Fin 64 => x0 (ix4 b h q e)) (fun e : Fin 64 => x1 (ix4 b h kk e)) (x3 (ix4 b (0 : Fin 1) q kk)) := by
  rw [val_main_v4_apply, val_main_v2_apply, val_main_v3_apply, val_main_v0_apply, val_main_v1_apply, val_main_cst_apply]
  unfold Attn.score Attn.C
  have e1 : ∀ e : Fin 64, lidx_main_v0 (ix4 b h q kk) e = ix4 b h q e := fun e => funext fun a => Fin.ext (by
    match a with | ⟨0, _⟩ => rfl | ⟨1, _⟩ => rfl | ⟨2, _⟩ => rfl | ⟨3, _⟩ => rfl)
  have e2 : ∀ e : Fin 64, ridx_main_v0 (ix4 b h q kk) e = ix4 b h kk e := fun e => funext fun a => Fin.ext (by
    match a with | ⟨0, _⟩ => rfl | ⟨1, _⟩ => rfl | ⟨2, _⟩ => rfl | ⟨3, _⟩ => rfl)
  have e3 : idx_main_v3 (ix4 b h q kk) = ix4 b (0 : Fin 1) q kk := funext fun a => Fin.ext (by
    match a with | ⟨0, _⟩ => rfl | ⟨1, _⟩ => rfl | ⟨2, _⟩ => rfl | ⟨3, _⟩ => rfl)
  simp only [e1, e2, e3]
  rfl

/-- The host's row maximum at (b, h, q): the fold of max over the key axis from the initial value. -/
theorem v5_at (b : Fin 2) (h : Fin 16) (q : Fin 2048) :
    val_main_v5 (F := Ideal) x0 x1 x3 (ix3 b h q)
      = Attn.rowMax Attn.NEG (fun kk : Fin 2048 => val_main_v4 (F := Ideal) x0 x1 x3 (ix4 b h q kk)) := by
  unfold val_main_v5 Attn.rowMax Attn.NEG
  generalize val_main_v4 (F := Ideal) x0 x1 x3 = y
  have hr : S2x16x2048x2048.Reduces [3] S2x16x2048 := by decide
  rw [Host.reduce_eq_fold_single (FloatOps.maximumf (F := Ideal) (φ := .f32)) y _ reducesTo_S2x16x2048x2048_S2x16x2048_d3 hr h_S_]
  show (Finset.univ : Finset (Fin 2048)).fold max (Ideal.ofBits .f32 0xFF800000#32) (y ∘ hr.lift (ix3 b h q)) = _
  refine congrArg ((Finset.univ : Finset (Fin 2048)).fold max (Ideal.ofBits .f32 0xFF800000#32)) (funext fun kk => ?_)
  exact congrArg y (funext fun a => Fin.ext (by match a with | ⟨0, _⟩ => rfl | ⟨1, _⟩ => rfl | ⟨2, _⟩ => rfl | ⟨3, _⟩ => rfl))

/-- The maximum of the fold with its own starting value is the fold. -/
theorem v7_at (b : Fin 2) (h : Fin 16) (q : Fin 2048) :
    val_main_v7 (F := Ideal) x0 x1 x3 (ix3 b h q)
      = Attn.rowMax Attn.NEG (fun kk : Fin 2048 => val_main_v4 (F := Ideal) x0 x1 x3 (ix4 b h q kk)) := by
  rw [val_main_v7_apply, val_main_v6_apply, val_main_cst_1_apply, v5_at]
  show max (Ideal.ofBits .f32 0xFF800000#32) _ = _
  refine max_eq_right ?_
  unfold Attn.rowMax Attn.NEG
  exact (Finset.le_fold_max _).2 (Or.inl le_rfl)

/-- The exponentials at (b, h, q, kk). -/
theorem v11_at (b : Fin 2) (h : Fin 16) (q kk : Fin 2048) :
    val_main_v11 (F := Ideal) x0 x1 x3 (ix4 b h q kk)
      = Attn.expRow Attn.NEG (fun k' : Fin 2048 => val_main_v4 (F := Ideal) x0 x1 x3 (ix4 b h q k')) kk := by
  rw [val_main_v11_apply, val_main_v10_apply, val_main_v9_apply, val_main_v8_apply]
  have e1 : idx_main_v8 (idx_main_v9 (ix4 b h q kk)) = ix3 b h q := funext fun a => Fin.ext (by
    match a with | ⟨0, _⟩ => rfl | ⟨1, _⟩ => rfl | ⟨2, _⟩ => rfl)
  rw [e1, v7_at]
  rfl

/-- The row sums at (b, h, q). -/
theorem v12_at (b : Fin 2) (h : Fin 16) (q : Fin 2048) :
    val_main_v12 (F := Ideal) x0 x1 x3 (ix3 b h q)
      = ∑ k' : Fin 2048, val_main_v11 (F := Ideal) x0 x1 x3 (ix4 b h q k') := by
  rw [val_main_v12_apply, val_main_cst_2_apply]
  show Ideal.ofBits .f32 0x00000000#32 + _ = _
  rw [Ideal.ofBits_zero_f32, zero_add]
  refine Finset.sum_congr rfl fun k' _ => ?_
  exact congrArg (val_main_v11 (F := Ideal) x0 x1 x3) (funext fun a => Fin.ext (by
    match a with | ⟨0, _⟩ => rfl | ⟨1, _⟩ => rfl | ⟨2, _⟩ => rfl | ⟨3, _⟩ => rfl))

/-- The softmax weights at (b, h, q, kk). -/
theorem v15_at (b : Fin 2) (h : Fin 16) (q kk : Fin 2048) :
    val_main_v15 (F := Ideal) x0 x1 x3 (ix4 b h q kk)
      = Attn.weight Attn.NEG (fun k' : Fin 2048 => val_main_v4 (F := Ideal) x0 x1 x3 (ix4 b h q k')) kk := by
  rw [val_main_v15_apply, val_main_v14_apply, val_main_v13_apply]
  have e1 : idx_main_v13 (idx_main_v14 (ix4 b h q kk)) = ix3 b h q := funext fun a => Fin.ext (by
    match a with | ⟨0, _⟩ => rfl | ⟨1, _⟩ => rfl | ⟨2, _⟩ => rfl)
  rw [e1, v12_at]
  unfold Attn.weight
  simp only [v11_at]
  rfl

/-- THE REFERENCE'S RESULT is the attention function of its four arguments. -/
theorem result_eq : val_main_v16 (F := Ideal) x0 x1 x2 x3 = Attn.attn x0 x1 x2 x3 := by
  funext i
  obtain ⟨b, h, q, d, rfl⟩ : ∃ (b : Fin 2) (h : Fin 16) (q : Fin 2048) (d : Fin 64), i = ix4 b h q d :=
    ⟨i 0, i 1, i 2, i 3, eq_ix4 i⟩
  rw [val_main_v16_apply]
  unfold Attn.attn Attn.attnAt Attn.out
  refine Finset.sum_congr rfl fun kk _ => ?_
  have e1 : lidx_main_v16 (ix4 b h q d) kk = ix4 b h q kk := funext fun a => Fin.ext (by
    match a with | ⟨0, _⟩ => rfl | ⟨1, _⟩ => rfl | ⟨2, _⟩ => rfl | ⟨3, _⟩ => rfl)
  have e2 : ridx_main_v16 (ix4 b h q d) kk = ix4 b h kk d := funext fun a => Fin.ext (by
    match a with | ⟨0, _⟩ => rfl | ⟨1, _⟩ => rfl | ⟨2, _⟩ => rfl | ⟨3, _⟩ => rfl)
  rw [e1, e2, v15_at]
  simp only [v4_at]

end Cert.ReferenceIdeal.RefAttn

end
-- ==== Proof.lean ====
/-
  Masked scaled dot-product attention: a kernel that loops over the sixteen heads inside each grid point, against
  the einsum–softmax–einsum reference.

  Over the extended reals both programs compute, at batch b, head h, query position q and feature d,
      ∑ k, w(k) · value(b, h, k, d),   w(k) = exp (s(k) − max s) / ∑ k', exp (s(k') − max s),
      s(k) = (∑ e, query(b, h, q, e) · key(b, h, k, e)) · 1/8 + mask(b, 0, q, k),
  the maximum being the fold of max over k from the same starting word in both. The kernel reaches it block by block:
  grid point (b, qi) holds 256 query rows of all heads and the whole keys and values of batch b, computes each head by
  two matrix products into zero accumulators with a row maximum, a row sum and an exact division between them, and
  stores sixteen [256, 64] pieces that tile its output block; the output blocks tile the array. The changes of float
  format on the way into the matrix products are the identity on extended reals, and a matrix product into zero is
  the plain sum of products, so each piece is the function above at its place (HeadValue, BlockFn, ArrayValue). The
  reference is that function stage by stage; its one extra operation, the maximum of the row maximum with the
  reduction's own starting value, changes nothing (RefValue). No step distributes, cancels or reorders a sum, so the
  finiteness of the inputs is never used. The ideal pass rewrote nothing, so there is nothing to preserve.
-/
import proofs.«147944_j39676907886819_2_alg».proof.Defs
import proofs.«147944_j39676907886819_2_alg».proof.Proof.Gen.Kernel
import proofs.«147944_j39676907886819_2_alg».proof.Proof.Gen.Kernel.Skeleton
import proofs.«147944_j39676907886819_2_alg».proof.Proof.Gen.Kernel.Launch
import proofs.«147944_j39676907886819_2_alg».proof.Proof.Gen.Kernel.Points
import proofs.«147944_j39676907886819_2_alg».proof.Proof.Gen.Kernel.Frame
import proofs.«147944_j39676907886819_2_alg».proof.Proof.Gen.KernelIdeal
import proofs.«147944_j39676907886819_2_alg».proof.Proof.Gen.KernelIdeal.Skeleton
import proofs.«147944_j39676907886819_2_alg».proof.Proof.Gen.KernelIdeal.Launch
import proofs.«147944_j39676907886819_2_alg».proof.Proof.Gen.KernelIdeal.Points
import proofs.«147944_j39676907886819_2_alg».proof.Proof.Gen.KernelIdeal.Frame
import proofs.«147944_j39676907886819_2_alg».proof.Proof.Gen.ReferenceIdeal
import proofs.«147944_j39676907886819_2_alg».proof.Proof.Gen.Pre_finite_inputs
import proofs.«147944_j39676907886819_2_alg».proof.Proof.Gen.KernelIdeal.Value
import proofs.«147944_j39676907886819_2_alg».proof.Proof.Gen.ReferenceIdeal.Run
import proofs.«147944_j39676907886819_2_alg».proof.Proof.Gen.ReferenceIdeal.Read
import proofs.«147944_j39676907886819_2_alg».proof.Proof.ArrayValue
import proofs.«147944_j39676907886819_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the four arguments, the kernel's result array ends at the attention function of them
    and so does the reference's. -/
theorem algebraic : Cert.algebraic_KernelIdeal_ReferenceIdeal := by
  intro m ρ m' ρ' _ hagree
  refine ⟨_, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v16_eq _ _ _ _).trans (Cert.ReferenceIdeal.RefAttn.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
